-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S27x64x64 .f32) (main_arg2 : FVec F S64 .f32) (main_arg3 : IVec S27x100000 32) (main_arg4 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩

abbrev nBuf : Space → Nat
  | .hbm => 28
  | .vmem => 6
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x100000, .i32⟩
  | .hbm, ⟨4, _⟩ => ⟨S27x100000, .i32⟩
  | .hbm, ⟨5, _⟩ => ⟨S200000x64, .bf16⟩
  | .hbm, ⟨6, _⟩ => ⟨S27x64x64, .bf16⟩
  | .hbm, ⟨7, _⟩ => ⟨S_, .i32⟩
  | .hbm, ⟨8, _⟩ => ⟨S27x100000, .i32⟩
  | .hbm, ⟨9, _⟩ => ⟨S27x100000, .i1⟩
  | .hbm, ⟨10, _⟩ => ⟨S_, .i32⟩
  | .hbm, ⟨11, _⟩ => ⟨S27x100000, .i32⟩
  | .hbm, ⟨12, _⟩ => ⟨S27x100000, .i32⟩
  | .hbm, ⟨13, _⟩ => ⟨S27x100000, .i32⟩
  | .hbm, ⟨14, _⟩ => ⟨S27x100000x1, .i32⟩
  | .hbm, ⟨15, _⟩ => ⟨S27x100000x64, .bf16⟩
  | .hbm, ⟨16, _⟩ => ⟨S27x100000x64, .bf16⟩
  | .hbm, ⟨17, _⟩ => ⟨S200000x64, .f32⟩
  | .hbm, ⟨18, _⟩ => ⟨S27x100000x64, .f32⟩
  | .hbm, ⟨19, _⟩ => ⟨S_, .i32⟩
  | .hbm, ⟨20, _⟩ => ⟨S27x100000, .i32⟩
  | .hbm, ⟨21, _⟩ => ⟨S27x100000, .i1⟩
  | .hbm, ⟨22, _⟩ => ⟨S_, .i32⟩
  | .hbm, ⟨23, _⟩ => ⟨S27x100000, .i32⟩
  | .hbm, ⟨24, _⟩ => ⟨S27x100000, .i32⟩
  | .hbm, ⟨25, _⟩ => ⟨S27x100000, .i32⟩
  | .hbm, ⟨26, _⟩ => ⟨S27x100000x1, .i32⟩
  | .hbm, ⟨27, _⟩ => ⟨S200000x64, .f32⟩
  | .local _ .vmem, ⟨0, _⟩ => ⟨S1x10000x64, .bf16⟩
  | .local _ .vmem, ⟨1, _⟩ => ⟨S1x10000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x10000x64, .bf16⟩
  | .local _ .vmem, ⟨5, _⟩ => ⟨S1x10000x64, .bf16⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  packedbf16_S1x10000x64_S1x10000x64_0_0_0 : (Rect.unit (s := S1x10000x64) ![0, 0, 0] S1x10000x64.size inb_S1x10000x64_S1x10000x64_0_0_0).PackedRows (EltTy.packing .bf16)
  bcast_S64_S200000x64_1 : S64.BroadcastsInDim S200000x64 (![1] : Fin 1 → Fin S200000x64.rank)
  gather_S200000x64_S27x100000x1_S27x100000x64_2_0_n_n_0_2_164_wf : GatherDims.WF S200000x64 S27x100000x1 S27x100000x64 [2] [0] [] [0] [] 2 ![1, 64]
  dot_S10000x64_S64x64_S10000x64_1_0_0_1_n_n_wf : DotDims.WF S10000x64 S64x64 S10000x64 [1] [0] [0] [1] [] []
  scatter_S200000x64_S27x100000x1_S27x100000x64_2_0_0_2_wf : ScatterDims.WF S200000x64 S27x100000x1 S27x100000x64 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x100000x64.size a
  hwx0_0 : ∀ i : grid0.Coords, EltTy.bits .bf16 = 32 ∨ (Rect.block (s := S27x100000x64) S1x10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x100000x64.size a
  hwx0_2 : ∀ i : grid0.Coords, EltTy.bits .bf16 = 32 ∨ (Rect.block (s := S27x100000x64) S1x10000x64.size (cc0_transform_2 i) (hinb0_2 i)).WholeWords (EltTy.packing .bf16)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S27x100000x1_S27x100000x64_2_0_0_2 : ScatterDims S200000x64 S27x100000x1 S27x100000x64 where
  updateWindowDims := [2]
  insertedWindowDims := [0]
  scatterDimsToOperandDims := [0]
  indexVectorDim := 2
  wf := scatter_S200000x64_S27x100000x1_S27x100000x64_2_0_0_2_wf

abbrev win0_0 : Pipeline.Window sig grid0 :=
  Pipeline.Window.ofSpec (Memref.whole main_v8) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x100000, .i32⟩
  | .hbm, ⟨4, _⟩ => ⟨S27x100000, .i32⟩
  | .hbm, ⟨5, _⟩ => ⟨S_, .i32⟩
  | .hbm, ⟨6, _⟩ => ⟨S27x100000, .i32⟩
  | .hbm, ⟨7, _⟩ => ⟨S27x100000, .i1⟩
  | .hbm, ⟨8, _⟩ => ⟨S_, .i32⟩
  | .hbm, ⟨9, _⟩ => ⟨S27x100000, .i32⟩
  | .hbm, ⟨10, _⟩ => ⟨S27x100000, .i32⟩
  | .hbm, ⟨11, _⟩ => ⟨S27x100000, .i32⟩
  | .hbm, ⟨12, _⟩ => ⟨S27x100000x1, .i32⟩
  | .hbm, ⟨13, _⟩ => ⟨S27x100000x64, .f32⟩
  | .hbm, ⟨14, _⟩ => ⟨S27x100000x64, .f32⟩
  | .hbm, ⟨15, _⟩ => ⟨S_, .f32⟩
  | .hbm, ⟨16, _⟩ => ⟨S200000x64, .f32⟩
  | .hbm, ⟨17, _⟩ => ⟨S_, .i32⟩
  | .hbm, ⟨18, _⟩ => ⟨S27x100000, .i32⟩
  | .hbm, ⟨19, _⟩ => ⟨S27x100000, .i1⟩
  | .hbm, ⟨20, _⟩ => ⟨S_, .i32⟩
  | .hbm, ⟨21, _⟩ => ⟨S27x100000, .i32⟩
  | .hbm, ⟨22, _⟩ => ⟨S27x100000, .i32⟩
  | .hbm, ⟨23, _⟩ => ⟨S27x100000, .i32⟩
  | .hbm, ⟨24, _⟩ => ⟨S27x100000x1, .i32⟩
  | .hbm, ⟨25, _⟩ => ⟨S200000x64, .f32⟩
  | .hbm, ⟨26, _⟩ => ⟨S1x64, .f32⟩
  | .hbm, ⟨27, _⟩ => ⟨S200000x64, .f32⟩
  | .hbm, ⟨28, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S27x100000x1_S27x100000x64_2_0_0_2_wf : ScatterDims.WF S200000x64 S27x100000x1 S27x100000x64 [2] [0] [0] 2

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S27x100000x1_S27x100000x64_2_0_0_2 : ScatterDims S200000x64 S27x100000x1 S27x100000x64 where
  updateWindowDims := [2]
  insertedWindowDims := [0]
  scatterDimsToOperandDims := [0]
  indexVectorDim := 2
  wf := scatter_S200000x64_S27x100000x1_S27x100000x64_2_0_0_2_wf

class Facts : Prop extends Facts₀ where

variable [Facts]
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelBlock.lean ====
/-
  What one grid point of the kernel computes, index by index, on the extended reals.

  At a grid point the body holds one block `x0` of 10000 gathered rows (shape [1, 10000, 64]) and one offset's weight
  matrix `x1` (shape [1, 64, 64]). It drops the unit axis of both, multiplies the [10000, 64] rows by the [64, 64]
  matrix on the matrix unit into a zero accumulator, changes the float format (the identity on the extended reals) and
  puts the unit axis back. So the stored block is, at `(0, r, o)`, the sum over the 64 input channels `c` of
  `x0(0, r, c) · x1(0, c, o)`.
-/
import proofs.«153809_j56392920596825_2_alg».proof.Proof.Gen.KernelIdeal.Skeleton
import proofs.«153809_j56392920596825_2_alg».proof.Proof.LibMatmulNN
import Idealize.ShloMosaic.Lib.ValueLayout

noncomputable section

open scoped BigOperators

namespace Cert.KernelIdeal.Block

open Cert.KernelIdeal Cert.KernelIdeal.Gen Idealize.ShloMosaic Idealize.ShloMosaic.ValueIdx

/-- The block the body stores, read at row `r` and output channel `o`: the row of `x0` times the column of `x1`. -/
theorem payload_apply (x0 : FVec Ideal S1x10000x64 .bf16) (x1 : FVec Ideal S1x64x64 .bf16)
    (u : Fin 1) (r : Fin 10000) (o : Fin 64) :
    k0_pay1 (F := Ideal) x0 x1 (ix3 u r o) = ∑ c : Fin 64, x0 (ix3 (0 : Fin 1) r c) * x1 (ix3 (0 : Fin 1) c o) := by
  unfold k0_pay1
  refine (shapeCast_ab_1ab_apply _ _ u r o).trans ?_
  refine (truncf_apply (ψ := .bf16) _ bitsLt_bf16_f32 (ix2 r o)).trans ?_
  refine (Cert.LibMatmulNN.matmul_nn_apply _ rfl rfl rfl rfl rfl rfl none _ _ r o).trans ?_
  refine Finset.sum_congr rfl fun c _ => ?_
  rw [shapeCast_1ab_ab_apply, shapeCast_1ab_ab_apply]

end Cert.KernelIdeal.Block

end
-- ==== Proof.SparseConvSpec.lean ====
/-
  A sparse convolution as gather, per-offset matrix product, scatter-add: what both programs compute, on the
  extended reals.

  For each of 27 kernel offsets `k`, 100000 gathered rows `A(k, r, ·)` of 64 input channels are multiplied by that
  offset's 64 x 64 weight matrix: `P(k, r, o) = Σ_c A(k, r, c) · W(k, c, o)` (`offsetGemm`). The products are then
  added into the rows of a 200000 x 64 table that an index array names, and a bias row is added to every row of the
  table. The two programs differ in WHERE the bias enters: one starts the accumulation from the table whose every row
  is the bias, the other starts from the zero table and adds the bias rows afterwards. An accumulating scatter on the
  extended reals is, at each element, the initial element plus the sum of the updates landing there, so the two are
  `b + S` and `(0 + S) + b`: equal because addition on the extended reals is commutative and zero is its unit
  (`scatterAdd_init_comm`). No finiteness is used: the sum `S` is the same term on both sides and is never opened.
-/
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.SparseConv

open Idealize.ShloMosaic Idealize.ShloMosaic.ValueIdx

/-- The per-offset matrix product: row `r` of offset `k`'s gathered rows times offset `k`'s weight matrix,
    `P(k, r, o) = Σ_c A(k, r, c) · W(k, c, o)`. -/
def offsetGemm (A : (⟨3, ![27, 100000, 64]⟩ : Shape).Idx → EReal) (W : (⟨3, ![27, 64, 64]⟩ : Shape).Idx → EReal) :
    (⟨3, ![27, 100000, 64]⟩ : Shape).Idx → EReal :=
  fun i => ∑ c : Fin 64, A (ix3 (i 0) (i 1) c) * W (ix3 (i 0) c (i 2))

theorem offsetGemm_apply (A : (⟨3, ![27, 100000, 64]⟩ : Shape).Idx → EReal) (W : (⟨3, ![27, 64, 64]⟩ : Shape).Idx → EReal)
    (k : Fin 27) (r : Fin 100000) (o : Fin 64) :
    offsetGemm A W (ix3 k r o) = ∑ c : Fin 64, A (ix3 k r c) * W (ix3 k c o) := rfl

/-- An accumulating scatter started from `b` is the same scatter started from a zero table, plus `b`: at each
    element both are the element of `b` plus the sum of the updates that land there. -/
theorem scatterAdd_init_comm {s si su : Shape} {w : Nat} {φ : FTy} (d : ScatterDims s si su)
    (b z : FVec Ideal s φ) (idx : IVec si w) (upd : FVec Ideal su φ) (hz : ∀ i, z i = 0) :
    Host.scatterAdd (F := Ideal) d b idx upd = addf (Host.scatterAdd (F := Ideal) d z idx upd) b := by
  funext i
  show Ideal.hostScatterAdd d b idx upd i = Ideal.hostScatterAdd d z idx upd i + b i
  unfold Ideal.hostScatterAdd
  rw [hz i, zero_add, add_comm]

/-- A scalar zero broadcast to a table is zero everywhere. -/
theorem zeroTable_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- A 64-vector broadcast along the rows of a 200000 x 64 table reads, at `(p, c)`, the vector at `c`. -/
theorem biasRows_apply {α : Type} (h : (⟨1, ![64]⟩ : Shape).BroadcastsInDim ⟨2, ![200000, 64]⟩ ![1])
    (x : (⟨1, ![64]⟩ : Shape).Idx → α) (p : Fin 200000) (c : Fin 64) :
    broadcastInDim ⟨2, ![200000, 64]⟩ ![1] h x (ix2 p c) = x (ix1 c) :=
  broadcastInDim_apply _ h x (ix2 p c) (ix1 c) (fun a => by match a with | ⟨0, _⟩ => rfl)

/-- The same table built in two steps, the vector first laid out as one row `[1, 64]`, that row then repeated. -/
theorem biasRows2_apply {α : Type} (h1 : (⟨1, ![64]⟩ : Shape).BroadcastsInDim ⟨2, ![1, 64]⟩ ![1])
    (h2 : (⟨2, ![1, 64]⟩ : Shape).BroadcastsInDim ⟨2, ![200000, 64]⟩ ![0, 1])
    (x : (⟨1, ![64]⟩ : Shape).Idx → α) (p : Fin 200000) (c : Fin 64) :
    broadcastInDim ⟨2, ![200000, 64]⟩ ![0, 1] h2 (broadcastInDim ⟨2, ![1, 64]⟩ ![1] h1 x) (ix2 p c) = x (ix1 c) :=
  (broadcastInDim_apply ![0, 1] h2 _ (ix2 p c) (ix2 (0 : Fin 1) c) (fun a => by
    match a with
    | ⟨0, _⟩ => rfl
    | ⟨1, _⟩ => rfl)).trans
  (broadcastInDim_apply _ h1 x (ix2 (0 : Fin 1) c) (ix1 c) (fun a => by match a with | ⟨0, _⟩ => rfl))

end Cert.SparseConv

end
-- ==== Proof.KernelArray.lean ====
/-
  The array of per-offset products after the kernel's region, as one function of what the region finds.

  The grid has 27 x 10 points. Point `(k, q)` fetches rows `10000·q … 10000·q + 9999` of offset `k`'s gathered rows
  (a [1, 10000, 64] block of the [27, 100000, 64] array) and offset `k`'s whole weight matrix (a [1, 64, 64] block of
  [27, 64, 64]), and writes back the block of the same position of the [27, 100000, 64] result. By the body's
  arithmetic the written block is, at row `r` and output channel `o`, the sum over input channels `c` of
  `A(k, 10000·q + r, c) · W(k, c, o)`: the block at `(k, q)` of the per-offset product of the two arrays. The 270
  blocks tile the result (row `R` of offset `k` lies in the block of point `(k, R / 10000)`), so after the region
  the result array is the per-offset product of the gathered rows and the weights, everywhere.
-/
import proofs.«153809_j56392920596825_2_alg».proof.Proof.Gen.KernelIdeal.Frame
import proofs.«153809_j56392920596825_2_alg».proof.Proof.KernelBlock
import proofs.«153809_j56392920596825_2_alg».proof.Proof.SparseConvSpec
import Idealize.ShloMosaic.Lib.Pipeline.Value

noncomputable section

open scoped BigOperators

namespace Cert.KernelIdeal.Products

open Cert.KernelIdeal Cert.KernelIdeal.Gen Cert.SparseConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl

/-- The three windows' block positions at a grid point, decided over the 270 points: the rows' block and the result's
    block sit at the same position, the weights' block at the same offset, and the positions stay in range. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (0 : Fin 3) ≤ 26 ∧ win0_2.index t (1 : Fin 3) ≤ 9 ∧ win0_2.index t (2 : Fin 3) = 0 :=
  (by decide +kernel : ∀ t : Fin grid0.N, _)

/-- Every block position `(k, q)` of the result is some grid point's. -/
theorem index_onto : ∀ (k : Fin 27) (q : Fin 10), ∃ t : Fin cfg0.N, win0_2.index t = ![k.val, q.val, 0] :=
  (by decide +kernel : ∀ (k : Fin 27) (q : Fin 10), ∃ t : Fin grid0.N, win0_2.index t = ![k.val, q.val, 0])

/-- The rows' block at point `t`, read at `(0, r, c)`, is the gathered rows at offset `K`, row `R`, channel `c`,
    where `(K, R / 10000)` is the point's block position and `r` the row inside the block. -/
theorem rows_apply (c : Dev nD) (t : Fin cfg0.N) (r : Fin 10000) (ch : Fin 64) (K : Fin 27) (R : Fin 100000)
    (hK : K.val = win0_2.index t (0 : Fin 3)) (hR : R.val = win0_2.index t (1 : Fin 3) * 10000 + r.val) :
    (iblk m c 0 t : FVec Ideal S1x10000x64 .bf16) (ix3 (0 : Fin 1) r ch)
      = (V m c main_v8 : S27x100000x64.Idx → EReal) (ix3 K R ch) := by
  obtain ⟨e0, e1, e2, -⟩ := index_facts t
  unfold iblk
  rw [View.read_apply]
  show (V m c main_v8 : S27x100000x64.Idx → EReal) _ = (V m c main_v8 : S27x100000x64.Idx → EReal) _
  refine congrArg (V m c main_v8 : S27x100000x64.Idx → EReal) (funext fun a => Fin.ext ?_)
  match a with
  | ⟨0, _⟩ => show win0_0.index t (0 : Fin 3) * 1 + 1 * 0 = K.val; omega
  | ⟨1, _⟩ => show win0_0.index t (1 : Fin 3) * 10000 + 1 * r.val = R.val; omega
  | ⟨2, _⟩ => show win0_0.index t (2 : Fin 3) * 64 + 1 * ch.val = ch.val; omega

/-- The weights' block at point `t`, read at `(0, c, o)`, is offset `K`'s weight matrix at `(c, o)`. -/
theorem weights_apply (c : Dev nD) (t : Fin cfg0.N) (ci : Fin 64) (o : Fin 64) (K : Fin 27)
    (hK : K.val = win0_2.index t (0 : Fin 3)) :
    (iblk m c 1 t : FVec Ideal S1x64x64 .bf16) (ix3 (0 : Fin 1) ci o)
      = (V m c main_v1 : S27x64x64.Idx → EReal) (ix3 K ci o) := by
  obtain ⟨-, -, -, e3, e4, e5, -⟩ := index_facts t
  unfold iblk
  rw [View.read_apply]
  show (V m c main_v1 : S27x64x64.Idx → EReal) _ = (V m c main_v1 : S27x64x64.Idx → EReal) _
  refine congrArg (V m c main_v1 : S27x64x64.Idx → EReal) (funext fun a => Fin.ext ?_)
  match a with
  | ⟨0, _⟩ => show win0_1.index t (0 : Fin 3) * 1 + 1 * 0 = K.val; omega
  | ⟨1, _⟩ => show win0_1.index t (1 : Fin 3) * 64 + 1 * ci.val = ci.val; omega
  | ⟨2, _⟩ => show win0_1.index t (2 : Fin 3) * 64 + 1 * o.val = o.val; omega

/-- Where an element of the result's block at point `t` sits in the result array. -/
theorem out_emb (t : Fin cfg0.N) (u : Fin 1) (r : Fin 10000) (o : Fin 64) (K : Fin 27) (R : Fin 100000)
    (hK : K.val = win0_2.index t (0 : Fin 3)) (hR : R.val = win0_2.index t (1 : Fin 3) * 10000 + r.val) :
    ((cfg0.win 2).blk t).view.emb (ix3 u r o) = (ix3 K R o : S27x100000x64.Idx) := by
  obtain ⟨-, -, -, -, -, -, -, -, e8⟩ := index_facts t
  refine funext fun a => Fin.ext ?_
  have hu : u.val = 0 := by omega
  match a with
  | ⟨0, _⟩ => show win0_2.index t (0 : Fin 3) * 1 + 1 * u.val = K.val; omega
  | ⟨1, _⟩ => show win0_2.index t (1 : Fin 3) * 10000 + 1 * r.val = R.val; omega
  | ⟨2, _⟩ => show win0_2.index t (2 : Fin 3) * 64 + 1 * o.val = o.val; omega

/-- WHAT POINT `t` WRITES BACK is block `t` of the per-offset product of the gathered rows and the weights as the
    region finds them. -/
theorem flushed_eq (c : Dev nD) (t : Fin cfg0.N) :
    (dats m 0 c).flushed 2 t
      = ((cfg0.win 2).blk t).view.read (Elt Ideal) (offsetGemm (V m c main_v8) (V m c main_v1)) := by
  show (cfg0.win 2).cut (grid0.coords t) ((dats m 0 c).after 2 t) = _
  rw [after0_2]
  unfold out0_2
  rw [View.canon_unit_zero zero3]
  simp only [View.ld_unit_zero (S := S1x10000x64) zero3, View.ld_unit_zero (S := S1x64x64) zero3]
  obtain ⟨-, -, -, -, -, -, b0, b1, -⟩ := index_facts t
  funext j
  obtain ⟨u, r, o, rfl⟩ : ∃ (u : Fin 1) (r : Fin 10000) (o : Fin 64), j = ix3 u r o := ⟨j 0, j 1, j 2, eq_ix3 j⟩
  have hr : r.val < 10000 := r.isLt
  show k0_pay1 (F := Ideal) (iblk m c 0 t) (iblk m c 1 t) (ix3 u r o)
      = offsetGemm (V m c main_v8) (V m c main_v1) (((cfg0.win 2).blk t).view.emb (ix3 u r o))
  rw [out_emb t u r o ⟨win0_2.index t (0 : Fin 3), by omega⟩ ⟨win0_2.index t (1 : Fin 3) * 10000 + r.val, by omega⟩ rfl rfl,
    offsetGemm_apply]
  refine (Block.payload_apply (iblk m c 0 t) (iblk m c 1 t) u r o).trans ?_
  refine Finset.sum_congr rfl fun ci _ => ?_
  rw [rows_apply m c t r ci ⟨win0_2.index t (0 : Fin 3), by omega⟩ ⟨win0_2.index t (1 : Fin 3) * 10000 + r.val, by omega⟩ rfl rfl,
    weights_apply m c t ci o ⟨win0_2.index t (0 : Fin 3), by omega⟩ rfl]

/-- An index of the result array is in point `t`'s block iff each coordinate is in the block's range on its axis. -/
theorem mem_blk (t : Fin cfg0.N) (i : S27x100000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v9).slice (win0_2.rect t)).set ↔ _
  rw [View.set_slice_whole, Rect.mem_set_unit]
  exact Iff.rfl

/-- The blocks tile the result: row `R` of offset `k` is in the block of the point at position `(k, R / 10000)`. -/
theorem cover (i : S27x100000x64.Idx) :
    ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  obtain ⟨t, ht⟩ := index_onto ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-- THE RESULT ARRAY after the region: the per-offset product of the gathered rows and the weights as the region
    finds them. -/
theorem products (c : Dev nD) :
    (dats m 0 c).arrAt 2 cfg0.N = offsetGemm (V m c main_v8) (V m c main_v1) :=
  (dats m 0 c).arrAt_eq_of_cover 2 (offsetGemm (V m c main_v8) (V m c main_v1)) (fun t _ => flushed_eq m c t) cover

end Cert.KernelIdeal.Products

end
-- ==== Proof.KernelRun.lean ====
/-
  The kernel program's result as one term of its arguments, on the extended reals.

  Before the region the host lines change the float format of the input features and of the weights (the identity on
  the extended reals), turn a negative index `n` into `n + 200000` (`wrapIdx`), and gather whole rows of the features
  at those indices. The region leaves the per-offset product of the gathered rows and the weights. After the region the
  host lines repeat the bias along the rows of a 200000 x 64 table, change the products' float format (the identity
  again), wrap the output indices the same way, and add the products into the table at the rows the indices name.
  So the program's result is `result` below: a scatter-add, started from the bias table, of the per-offset products of
  the gathered rows.
-/
import proofs.«153809_j56392920596825_2_alg».proof.Proof.KernelArray
import Idealize.ShloMosaic.Lib.StableHlo.Run

noncomputable section

namespace Cert.KernelIdeal.Products

open Cert.KernelIdeal Cert.KernelIdeal.Gen Cert.SparseConv
open Idealize.ShloMosaic Idealize.ShloMosaic.TcCoe Idealize.ShloMosaic.ValueIdx Idealize.SL.Sem
open Idealize.ShloMosaic.Pipeline (Dat)

/-- Index normalisation as the host lines write it: a negative index counts from the end of the 200000 rows; then
    each index becomes a one-component index vector. -/
def wrapIdx (a : IVec S27x100000 32) : IVec S27x100000x1 32 :=
  broadcastInDim S27x100000x1 ![0, 1] bcast_S27x100000_S27x100000x1_0_1
    (select (cmpi .slt a (broadcastInDim S27x100000 ![] bcast_S_S27x100000 (constantI S_ 32 0#32)))
      (addi a (broadcastInDim S27x100000 ![] bcast_S_S27x100000 (constantI S_ 32 200000#32))) a)

/-- The program's result as a function of its five arguments: the bias table, with the per-offset products of the
    gathered feature rows added in at the output rows. -/
def result (a0 : FVec Ideal S200000x64 .f32) (a1 : FVec Ideal S27x64x64 .f32) (a2 : FVec Ideal S64 .f32)
    (a3 a4 : IVec S27x100000 32) : FVec Ideal S200000x64 .f32 :=
  Host.scatterAdd (F := Ideal) scatter_S200000x64_S27x100000x1_S27x100000x64_2_0_0_2
    (broadcastInDim S200000x64 ![1] bcast_S64_S200000x64_1 a2) (wrapIdx a4)
    (offsetGemm (Host.gather gather_S200000x64_S27x100000x1_S27x100000x64_2_0_n_n_0_2_164 a0 (wrapIdx a3)) a1)

variable (m : (ℓ : Loc nD τ sig) → Buf (Elt Ideal) ℓ) (ρ : Dev nD → PrngReg)

/-- The rows the region finds: the features gathered at the wrapped input indices. -/
theorem rows_found (c : Dev nD) :
    (V m c main_v8 : S27x100000x64.Idx → EReal)
      = Host.gather gather_S200000x64_S27x100000x1_S27x100000x64_2_0_n_n_0_2_164
          (m ((c : Thread nD τ).loc main_arg0)) (wrapIdx (m ((c : Thread nD τ).loc main_arg3))) := by
  show StableHlo.after hostOps0 (fun b => m (c, b)) (Proc.devRef .tc main_v8) = _
  after_results
  rfl

/-- The weights the region finds: the weights as launched. -/
theorem weights_found (c : Dev nD) :
    (V m c main_v1 : S27x64x64.Idx → EReal) = m ((c : Thread nD τ).loc main_arg1) := by
  show StableHlo.after hostOps0 (fun b => m (c, b)) (Proc.devRef .tc main_v1) = _
  after_results
  rfl

/-- What the host lines after the region leave in the result buffer. -/
theorem tail_eq (c : Dev nD) :
    Pipeline.afterTail₀ cfgs (dats m) 0 (V0 m) [hostOps1] c main_v18
      = result (m ((c : Thread nD τ).loc main_arg0)) (m ((c : Thread nD τ).loc main_arg1))
          (m ((c : Thread nD τ).loc main_arg2)) (m ((c : Thread nD τ).loc main_arg3)) (m ((c : Thread nD τ).loc main_arg4)) := by
  have h9 : Pipeline.withArrays spec0 c (V0 m c) (fun w => (dats m 0 c).arrAt w cfg0.N) (Proc.devRef .tc main_v9)
      = offsetGemm (V m c main_v8) (V m c main_v1) :=
    (Pipeline.withArrays_arr spec0 winFacts0.arr_inj c (V0 m c) (fun w => (dats m 0 c).arrAt w cfg0.N) 2).trans (products m c)
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  have h4 : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans
      (V_main_arg4 m c)
  rw [rows_found, weights_found] at h9
  unfold Pipeline.afterTail₀
  show StableHlo.after hostOps1 (Pipeline.withArrays spec0 c (V0 m c) fun w => (dats m 0 c).arrAt w cfg0.N)
      (Proc.devRef .tc main_v18) = _
  generalize Pipeline.withArrays spec0 c (V0 m c) (fun w => (dats m 0 c).arrAt w cfg0.N) = W at h9 h2 h4 ⊢
  after_results
  rw [h9, h2, h4]
  rfl

/-- The frame run re-posted: the result buffer at `result` of the arguments as launched, the arguments unchanged. -/
theorem run : θ_run defs (onTc (τ := τ) (main (F := Ideal))) ⟨m, fun _ => 0, ρ⟩ fun r => ∀ c : Dev nD,
      r.2.mem ((c.tc : Thread nD τ).loc main_v18)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Products

end
-- ==== Proof.LibHostBatchMatmul.lean ====
/-
  A host program's batched matrix product read at an index on the extended reals.

  `stablehlo.dot_general` of a `[B, M, K]` by a `[B, K, N]` operand — batch axis 0 of both, the left operand's last
  axis contracted with the right operand's middle one (jnp `A @ B` on stacks of matrices; dimension numbers
  batching `[0] x [0]`, contracting `[2] x [1]`, free axes `[1]` and `[2]`) — is, at `(b, i, j)`, the sum over
  `k : Fin K` of `A(b, i, k) · B(b, k, j)`: on the extended reals the host's schedule of the additions does not
  matter. Stated for ANY record of dimension numbers with those six lists (each hypothesis closed by `rfl` at a
  printed record); imports only the Idealize library.
-/
import Idealize.ShloMosaic.Lib.ValueIdx
import Idealize.ShloMosaic.Lib.Pipeline.Value
import Idealize.ShloMosaic.PureOps.Ideal.Laws

noncomputable section

open scoped BigOperators

namespace Cert.LibHostBatchMatmul

open Idealize.ShloMosaic Idealize.ShloMosaic.ValueIdx

variable {B M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

section
variable (d : DotDims ⟨3, ![B, M, K]⟩ ⟨3, ![B, K, N]⟩ ⟨3, ![B, M, N]⟩)

/-- The left operand's batch coordinate is the result's. -/
theorem lhsIdx_batch (hlb : d.lhsBatch = [0]) (j : (⟨3, ![B, M, N]⟩ : Shape).Idx) (k : d.contr.Idx) :
    (d.lhsIdx j k 0).val = (j 0).val := by
  unfold DotDims.lhsIdx
  rw [dif_pos (by rw [hlb]; exact List.mem_singleton.mpr rfl)]
  rw [Fin.val_cast]
  exact coord_congr j _ 0 _ (by show 0 < 3; omega) (by rw [hlb]; rfl)

/-- The left operand's row is the result's row. -/
theorem lhsIdx_row (hlb : d.lhsBatch = [0]) (hln : d.lhsNonContracting = [1])
    (j : (⟨3, ![B, M, N]⟩ : Shape).Idx) (k : d.contr.Idx) : (d.lhsIdx j k 1).val = (j 1).val := by
  unfold DotDims.lhsIdx
  rw [dif_neg (by rw [hlb]; simp), dif_pos (by rw [hln]; exact List.mem_singleton.mpr rfl)]
  rw [Fin.val_cast]
  exact coord_congr j _ 1 _ (by show 1 < 3; omega) (by rw [hlb, hln]; rfl)

/-- The right operand's batch coordinate is the result's. -/
theorem rhsIdx_batch (hrb : d.rhsBatch = [0]) (j : (⟨3, ![B, M, N]⟩ : Shape).Idx) (k : d.contr.Idx) :
    (d.rhsIdx j k 0).val = (j 0).val := by
  unfold DotDims.rhsIdx
  rw [dif_pos (by rw [hrb]; exact List.mem_singleton.mpr rfl)]
  rw [Fin.val_cast]
  exact coord_congr j _ 0 _ (by show 0 < 3; omega) (by rw [hrb]; rfl)

/-- The right operand's column is the result's column. -/
theorem rhsIdx_col (hlb : d.lhsBatch = [0]) (hrb : d.rhsBatch = [0]) (hln : d.lhsNonContracting = [1]) (hrn : d.rhsNonContracting = [2])
    (j : (⟨3, ![B, M, N]⟩ : Shape).Idx) (k : d.contr.Idx) : (d.rhsIdx j k 2).val = (j 2).val := by
  unfold DotDims.rhsIdx
  rw [dif_neg (by rw [hrb]; simp), dif_pos (by rw [hrn]; exact List.mem_singleton.mpr rfl)]
  rw [Fin.val_cast]
  exact coord_congr j _ 2 _ (by show 2 < 3; omega) (by rw [hlb, hln, hrn]; rfl)

/-- The contraction ranges over one axis, of extent `K`. -/
theorem contr_rank (hlc : d.lhsContracting = [2]) : d.contr.rank = 1 := by
  rw [d.rank_contr, hlc]; rfl

theorem contr_size (hlc : d.lhsContracting = [2]) :
    d.contr.size ⟨0, by rw [contr_rank d hlc]; exact Nat.one_pos⟩ = K := by
  rw [d.size_contr 0 (by rw [hlc]; exact Nat.one_pos), List.getElem_of_eq hlc]
  rfl

/-- The host's batched `A · B`, at `(b, i, j)`, is `Σ_k A[b, i, k] · B[b, k, j]`. -/
theorem hostDot_bnn_apply {φ₁ φ₂ : FTy}
    (hlc : d.lhsContracting = [2]) (hrc : d.rhsContracting = [1])
    (hln : d.lhsNonContracting = [1]) (hrn : d.rhsNonContracting = [2])
    (hlb : d.lhsBatch = [0]) (hrb : d.rhsBatch = [0])
    (prec : Option ContractPrecision) (A : FVec Ideal ⟨3, ![B, M, K]⟩ φ₁) (Bm : FVec Ideal ⟨3, ![B, K, N]⟩ φ₂)
    (b : Fin B) (i : Fin M) (j : Fin N) :
    Host.dotGeneral d prec A Bm (ix3 b i j) = ∑ k : Fin K, A (ix3 b i k) * Bm (ix3 b k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b i j) ((contrEquiv1 d K hr hs).symm k) = ix3 b i k := funext fun a => Fin.ext (by
    match a with
    | ⟨0, _⟩ => exact lhsIdx_batch d hlb _ _
    | ⟨1, _⟩ => exact lhsIdx_row d hlb hln _ _
    | ⟨2, _⟩ => exact (d.lhsIdx_val_of_single hlc _ _).trans hk)
  have er : d.rhsIdx (ix3 b i j) ((contrEquiv1 d K hr hs).symm k) = ix3 b k j := funext fun a => Fin.ext (by
    match a with
    | ⟨0, _⟩ => exact rhsIdx_batch d hrb _ _
    | ⟨1, _⟩ => exact (d.rhsIdx_val_of_single hrc _ _).trans hk
    | ⟨2, _⟩ => exact rhsIdx_col d hlb hrb hln hrn _ _)
  rw [el, er]

end

/-- A stack of matrices with its last two axes swapped, read at (b, i, j), is the stack at (b, j, i). -/
theorem transpose021_apply {α : Type} {a b c : ℕ} (x : (⟨3, ![a, b, c]⟩ : Shape).Idx → α)
    (h : (⟨3, ![a, b, c]⟩ : Shape).Transposes [0, 2, 1] ⟨3, ![a, c, b]⟩) (n : Fin a) (i : Fin c) (j : Fin b) :
    transpose ⟨3, ![a, c, b]⟩ [0, 2, 1] x h (ix3 n i j) = x (ix3 n j i) :=
  transpose_apply [0, 2, 1] x h (ix3 n i j) (ix3 n j i) fun t => by
    match t with
    | ⟨0, _⟩ => rfl
    | ⟨1, _⟩ => rfl
    | ⟨2, _⟩ => rfl

end Cert.LibHostBatchMatmul

end
-- ==== Proof.RefValue.lean ====
/-
  The reference program's result, on the extended reals, in the kernel program's arrangement.

  The reference gathers whole feature rows at the wrapped input indices, multiplies them offset by offset with the
  weights in ONE batched product — at `(k, r, o)` the sum over the 64 input channels `c` of `A(k, r, c) · W(k, c, o)`,
  the per-offset product `offsetGemm` —, adds the products into a ZERO table at the rows the wrapped output indices
  name, and then adds the bias to every row. Starting the accumulation from the table of bias rows instead gives the
  same table: at each element both are the bias plus the sum of the products landing there.
-/
import proofs.«153809_j56392920596825_2_alg».proof.Proof.Gen.ReferenceIdeal
import proofs.«153809_j56392920596825_2_alg».proof.Proof.LibHostBatchMatmul
import proofs.«153809_j56392920596825_2_alg».proof.Proof.SparseConvSpec

noncomputable section

open scoped BigOperators

namespace Cert.ReferenceIdeal.Products

open Cert.ReferenceIdeal Cert.ReferenceIdeal.Gen Cert.SparseConv
open Idealize.ShloMosaic Idealize.ShloMosaic.ValueIdx

/-- The host's batched product of the gathered rows and the weights is the per-offset product. -/
theorem hostDot_eq (A : FVec Ideal S27x100000x64 .f32) (W : FVec Ideal S27x64x64 .f32) :
    Host.dotGeneral (F := Ideal) dot_S27x100000x64_S27x64x64_S27x100000x64_2_1_1_2_0_0 none A W = offsetGemm A W := by
  funext i
  obtain ⟨k, r, o, rfl⟩ : ∃ (k : Fin 27) (r : Fin 100000) (o : Fin 64), i = ix3 k r o := ⟨i 0, i 1, i 2, eq_ix3 i⟩
  exact Cert.LibHostBatchMatmul.hostDot_bnn_apply _ rfl rfl rfl rfl rfl rfl none A W k r o

/-- Index normalisation as the host lines write it: a negative index counts from the end of the 200000 rows; then
    each index becomes a one-component index vector. -/
def wrapIdx (a : IVec S27x100000 32) : IVec S27x100000x1 32 :=
  broadcastInDim S27x100000x1 ![0, 1] bcast_S27x100000_S27x100000x1_0_1
    (select (cmpi .slt a (broadcastInDim S27x100000 ![] bcast_S_S27x100000 (constantI S_ 32 0#32)))
      (addi a (broadcastInDim S27x100000 ![] bcast_S_S27x100000 (constantI S_ 32 200000#32))) a)

/-- The bias laid out as one row and that row repeated is the bias repeated along the rows. -/
theorem biasTable_eq (hb : S64.BroadcastsInDim S200000x64 ![1]) (a2 : FVec Ideal S64 .f32) :
    broadcastInDim S200000x64 ![0, 1] bcast_S1x64_S200000x64_0_1 (broadcastInDim S1x64 ![1] bcast_S64_S1x64_1 a2)
      = broadcastInDim S200000x64 ![1] hb a2 := by
  funext j
  obtain ⟨p, c, rfl⟩ : ∃ (p : Fin 200000) (c : Fin 64), j = ix2 p c := ⟨j 0, j 1, eq_ix2 j⟩
  exact (biasRows2_apply _ _ a2 p c).trans (biasRows_apply hb a2 p c).symm

/-- The reference's composed term is the scatter-add, started from the bias table, of the per-offset products of the
    gathered rows. -/
theorem result_eq (hb : S64.BroadcastsInDim S200000x64 ![1]) (a0 : FVec Ideal S200000x64 .f32)
    (a1 : FVec Ideal S27x64x64 .f32) (a2 : FVec Ideal S64 .f32) (a3 a4 : IVec S27x100000 32) :
    addf (Host.scatterAdd (F := Ideal) scatter_S200000x64_S27x100000x1_S27x100000x64_2_0_0_2
        (broadcastInDim S200000x64 ![] bcast_S_S200000x64 (constant (F := Ideal) S_ .f32 0x00000000#32)) (wrapIdx a4)
        (Host.dotGeneral (F := Ideal) dot_S27x100000x64_S27x64x64_S27x100000x64_2_1_1_2_0_0 none
          (Host.gather gather_S200000x64_S27x100000x1_S27x100000x64_2_0_n_n_0_2_164 a0 (wrapIdx a3)) a1))
      (broadcastInDim S200000x64 ![0, 1] bcast_S1x64_S200000x64_0_1 (broadcastInDim S1x64 ![1] bcast_S64_S1x64_1 a2))
    = Host.scatterAdd (F := Ideal) scatter_S200000x64_S27x100000x1_S27x100000x64_2_0_0_2
        (broadcastInDim S200000x64 ![1] hb a2) (wrapIdx a4)
        (offsetGemm (Host.gather gather_S200000x64_S27x100000x1_S27x100000x64_2_0_n_n_0_2_164 a0 (wrapIdx a3)) a1) := by
  rw [hostDot_eq, biasTable_eq hb]
  exact (scatterAdd_init_comm _ _ _ _ _ (fun i => zeroTable_apply _ i)).symm

end Cert.ReferenceIdeal.Products

end
-- ==== Proof.lean ====
/-
  A sparse 3-D convolution — gather, per-offset matrix product, scatter-add, bias — as a kernel program and as its
  plain reference: equal results on the extended reals.

  Both programs turn negative row indices into indices from the end, gather 27 x 100000 rows of 64 input channels
  from the feature table, multiply the rows of each of the 27 kernel offsets by that offset's 64 x 64 weight matrix,
  and add the resulting rows into a 200000 x 64 table at the rows a second index array names; a bias row is added to
  every row of the table. They differ in three ways, none of which changes the value on the extended reals:

  * the kernel program computes the products block by block, 10000 rows at a time on a 27 x 10 grid, each block one
    matrix-unit product into a zero accumulator; the reference computes them in one batched product. At every
    `(k, r, o)` both are the sum over the 64 input channels `c` of `A(k, r, c) · W(k, c, o)`
    (Proof/KernelBlock.lean, Proof/KernelArray.lean for the kernel's blocks and their tiling of the array;
    Proof/RefValue.lean for the reference's batched product);
  * the kernel program changes float formats on the way in and out of the product; on the extended reals a change
    of format is the identity;
  * the kernel program starts the accumulation from the table of bias rows, the reference starts it from zero and
    adds the bias rows afterwards. An accumulating scatter is, at each element, the initial element plus the sum of
    the updates landing there, so the two are `b + S` and `(0 + S) + b` with the same `S`: equal because addition on
    the extended reals is commutative with unit zero (Proof/SparseConvSpec.lean). Neither the gather nor the
    scatter's index arithmetic is opened: both programs apply the same dimension numbers to the same index arrays.

  No finiteness of the inputs is used. The three frames are the generated frame runs (the reference's its generated
  run with the result dropped); the idealization rewrote no operation, so `preserves` is trivial.
-/
import proofs.«153809_j56392920596825_2_alg».proof.Defs
import proofs.«153809_j56392920596825_2_alg».proof.Proof.Gen.Kernel
import proofs.«153809_j56392920596825_2_alg».proof.Proof.Gen.Kernel.Frame
import proofs.«153809_j56392920596825_2_alg».proof.Proof.Gen.KernelIdeal
import proofs.«153809_j56392920596825_2_alg».proof.Proof.Gen.KernelIdeal.Frame
import proofs.«153809_j56392920596825_2_alg».proof.Proof.Gen.ReferenceIdeal
import proofs.«153809_j56392920596825_2_alg».proof.Proof.Gen.Pre_finite_inputs
import proofs.«153809_j56392920596825_2_alg».proof.Proof.Gen.ReferenceIdeal.Run
import proofs.«153809_j56392920596825_2_alg».proof.Proof.KernelRun
import proofs.«153809_j56392920596825_2_alg».proof.Proof.RefValue
import Idealize.ShloMosaic.Adequacy
import Idealize.ShloMosaic.Init

noncomputable section

namespace Cert.Proof

open Idealize.ShloMosaic Idealize.SL.Sem

/-- The word-level kernel program runs, and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what the run says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, both programs end with the bias table plus, at each output row,
    the per-offset products of the gathered feature rows that the output indices send there. -/
theorem algebraic : Cert.algebraic_KernelIdeal_ReferenceIdeal := by
  intro m ρ m' ρ' _ hagree
  refine ⟨_, Cert.KernelIdeal.Products.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Products.result_eq Cert.KernelIdeal.Facts₀.bcast_S64_S200000x64_1 _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
